-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S512x2048 : Shape := ⟨2, ![512, 2048]⟩
abbrev S1x2048 : Shape := ⟨2, ![1, 2048]⟩
abbrev S2048x2048 : Shape := ⟨2, ![2048, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .bf16⟩
  | .hbm, ⟨5, _⟩ => ⟨S8192x4096, .bf16⟩
  | .hbm, ⟨6, _⟩ => ⟨S1x4096, .f32⟩
  | .hbm, ⟨7, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  dot_S2048x512_S512x2048_S2048x2048_1_0_0_1_n_n_wf : DotDims.WF S2048x512 S512x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S8192x4096.size a
  hwx0_3 : ∀ i : grid0.Coords, EltTy.bits .f32 = 32 ∨ (Rect.block (s := S8192x4096) S2048x2048.size (cc0_transform_3 i) (hinb0_3 i)).WholeWords (EltTy.packing .f32)

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KernelBlocks.lean ====
/-
  The blocks the kernel reads.

  Before the grid starts, the first argument x has been copied unchanged (a change of float format, the identity on
  the extended reals), the second argument has been replaced by its sign entry by entry (and copied the same way), and
  the bias vector has been laid out as one row [1, 4096]. The grid has 4 · 2 · 8 = 64 points; point t has coordinates
  (t / 16, t / 8 mod 2, t mod 8): a block of 2048 rows, a block of 2048 columns, and one of the 8 pieces of 512 along
  the summation axis. At point t the kernel reads
    * rows (t / 16) · 2048 …, columns (t mod 8) · 512 … of x,
    * rows (t mod 8) · 512 …, columns (t / 8 mod 2) · 2048 … of the sign of the second argument,
    * columns (t / 8 mod 2) · 2048 … of the bias row.
  The lemmas below read each block at a position inside it, as an entry of the argument arrays.
-/
import proofs.«177421_j79044578116096_2_alg».proof.Proof.Gen.KernelIdeal.Value
import Idealize.ShloMosaic.Lib.StableHlo.Run
import Idealize.ShloMosaic.Lib.ValueLayout
import Idealize.ShloMosaic.Lib.ValueIdx

noncomputable section

namespace Cert.KernelIdeal.KernelDense

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

/-! ## The arrays the grid starts from -/

/-- The array behind the first window is the first argument: the format change is the identity. -/
theorem V_x (c : Dev nD) : @Eq (FVec Ideal S8192x4096 .f32) (V m c main_v2) (m ((c : Thread nD τ).loc main_arg0)) := by
  dsimp only [V, hostOps0]
  after_results
  rfl

/-- The array behind the second window is the sign of the second argument. -/
theorem V_w (c : Dev nD) :
    @Eq (FVec Ideal S4096x4096 .f32) (V m c main_v1) (Host.sign (m ((c : Thread nD τ).loc main_arg1))) := by
  dsimp only [V, hostOps0]
  after_results
  rfl

/-- The array behind the third window is the bias vector laid out as one row. -/
theorem V_b (c : Dev nD) : @Eq (FVec Ideal S1x4096 .f32) (V m c main_v3)
    (shapeCast S1x4096 (m ((c : Thread nD τ).loc main_arg2)) shapeCasts_S4096_S1x4096) := by
  dsimp only [V, hostOps0]
  after_results
  rfl

/-! ## Which block each point reads -/

/-- The block indices of the three input windows at point t, decided over the 64 points. -/
theorem point_facts : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = 0 ∧ win0_2.index t (1 : Fin 2) = t.val / 8 % 2 :=
  (by decide +kernel : ∀ t : Fin grid0.N, _)

/-- Position (p, k) of the block of x read at point t is entry (P, K) of x, where P = (t / 16) · 2048 + p and
    K = (t mod 8) · 512 + k. -/
theorem xblk_apply (c : Dev nD) (t : Fin cfg0.N) (p : Fin 2048) (k : Fin 512) (P : Fin 8192) (K : Fin 4096)
    (hP : P.val = t.val / 16 * 2048 + p.val) (hK : K.val = t.val % 8 * 512 + k.val) :
    (iblk m c 0 t : FVec Ideal S2048x512 .bf16) (ix2 p k) = m ((c : Thread nD τ).loc main_arg0) (ix2 P K) := by
  obtain ⟨e0, e1, -⟩ := point_facts t
  show (V m c main_v2 : FVec Ideal S8192x4096 .f32) (((cfg0.win 0).blk t).view.emb (ix2 p k)) = _
  rw [V_x]
  refine congrArg _ (funext fun a => Fin.ext ?_)
  match a with
  | ⟨0, _⟩ => show win0_0.index t (0 : Fin 2) * 2048 + 1 * p.val = P.val; rw [e0, hP]; omega
  | ⟨1, _⟩ => show win0_0.index t (1 : Fin 2) * 512 + 1 * k.val = K.val; rw [e1, hK]; omega

/-- Position (k, j) of the block of the signed weight read at point t is its entry (K, J), where
    K = (t mod 8) · 512 + k and J = (t / 8 mod 2) · 2048 + j. -/
theorem wblk_apply (c : Dev nD) (t : Fin cfg0.N) (k : Fin 512) (j : Fin 2048) (K : Fin 4096) (J : Fin 4096)
    (hK : K.val = t.val % 8 * 512 + k.val) (hJ : J.val = t.val / 8 % 2 * 2048 + j.val) :
    @Eq EReal ((iblk m c 1 t : FVec Ideal S512x2048 .bf16) (ix2 k j))
      ((Host.sign (m ((c : Thread nD τ).loc main_arg1)) : FVec Ideal S4096x4096 .f32) (ix2 K J)) := by
  obtain ⟨-, -, e0, e1, -⟩ := point_facts t
  show (V m c main_v1 : FVec Ideal S4096x4096 .f32) (((cfg0.win 1).blk t).view.emb (ix2 k j)) = _
  rw [V_w]
  refine congrArg _ (funext fun a => Fin.ext ?_)
  match a with
  | ⟨0, _⟩ => show win0_1.index t (0 : Fin 2) * 512 + 1 * k.val = K.val; rw [e0, hK]; omega
  | ⟨1, _⟩ => show win0_1.index t (1 : Fin 2) * 2048 + 1 * j.val = J.val; rw [e1, hJ]; omega

/-- Position (0, j) of the block of the bias row read at point t is entry J of the bias vector, where
    J = (t / 8 mod 2) · 2048 + j. -/
theorem bblk_apply (c : Dev nD) (t : Fin cfg0.N) (j : Fin 2048) (J : Fin 4096)
    (hJ : J.val = t.val / 8 % 2 * 2048 + j.val) :
    (iblk m c 2 t : FVec Ideal S1x2048 .f32) (ix2 (0 : Fin 1) j) = m ((c : Thread nD τ).loc main_arg2) (ix1 J) := by
  obtain ⟨-, -, -, -, e0, e1⟩ := point_facts t
  show (V m c main_v3 : FVec Ideal S1x4096 .f32) (((cfg0.win 2).blk t).view.emb (ix2 (0 : Fin 1) j)) = _
  rw [V_b]
  have e : ((cfg0.win 2).blk t).view.emb (ix2 (0 : Fin 1) j) = ix2 (0 : Fin 1) J := funext fun a => Fin.ext (by
    match a with
    | ⟨0, _⟩ => show win0_2.index t (0 : Fin 2) * 1 + 1 * 0 = 0; rw [e0]
    | ⟨1, _⟩ => show win0_2.index t (1 : Fin 2) * 2048 + 1 * j.val = J.val; rw [e1, hJ]; omega)
  rw [e]
  exact shapeCast_a_1a_apply _ _ _ _

end Cert.KernelIdeal.KernelDense

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.KernelFold.lean ====
/-
  What one run of eight grid points leaves in the output block.

  The output block (i, j) stays in place while the last grid coordinate runs through the 8 pieces of the summation
  axis. The first point of the run stores zero and then adds the product of its two input blocks (each entry of the
  product a sum of 512 products); each later point adds its own block product to what the point before left; the
  eighth point then also adds the bias row to every row. So after the run the block holds, at position (p, j), the sum
  over the eight points of their block products at (p, j), plus the bias row's entry j. Sums of extended reals are
  commutative and associative, so no finiteness is needed.
-/
import proofs.«177421_j79044578116096_2_alg».proof.Proof.Gen.KernelIdeal.Value
import proofs.«177421_j79044578116096_2_alg».proof.Proof.LibAffine
import Idealize.ShloMosaic.Lib.ValueLayout
import Idealize.ShloMosaic.Lib.ValueIdx
import Idealize.ShloMosaic.PureOps.Ideal.Laws

noncomputable section

namespace Cert.KernelIdeal.KernelDense

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

/-! ## One block product

The matrix unit's dimension record contracts the 512 columns of a [2048, 512] block against the 512 rows of a
[512, 2048] block: the four coordinate facts below say which coordinates of the operands an output position and a
summation position name. -/

theorem lhs0 (i : S2048x2048.Idx) (q : dot_S2048x512_S512x2048_S2048x2048_1_0_0_1_n_n.contr.Idx) :
    (dot_S2048x512_S512x2048_S2048x2048_1_0_0_1_n_n.lhsIdx i q 0).val = (i 0).val := by
  unfold DotDims.lhsIdx
  rw [dif_neg (show ¬(0 : Fin S2048x512.rank) ∈ dot_S2048x512_S512x2048_S2048x2048_1_0_0_1_n_n.lhsBatch by decide),
    dif_pos (show (0 : Fin S2048x512.rank) ∈ dot_S2048x512_S512x2048_S2048x2048_1_0_0_1_n_n.lhsNonContracting by decide)]
  rfl

theorem lhs1 (i : S2048x2048.Idx) (q : dot_S2048x512_S512x2048_S2048x2048_1_0_0_1_n_n.contr.Idx) :
    (dot_S2048x512_S512x2048_S2048x2048_1_0_0_1_n_n.lhsIdx i q 1).val = (q ⟨0, by decide⟩).val :=
  dot_S2048x512_S512x2048_S2048x2048_1_0_0_1_n_n.lhsIdx_val_of_single rfl i q

theorem rhs0 (i : S2048x2048.Idx) (q : dot_S2048x512_S512x2048_S2048x2048_1_0_0_1_n_n.contr.Idx) :
    (dot_S2048x512_S512x2048_S2048x2048_1_0_0_1_n_n.rhsIdx i q 0).val = (q ⟨0, by decide⟩).val :=
  dot_S2048x512_S512x2048_S2048x2048_1_0_0_1_n_n.rhsIdx_val_of_single rfl i q

theorem rhs1 (i : S2048x2048.Idx) (q : dot_S2048x512_S512x2048_S2048x2048_1_0_0_1_n_n.contr.Idx) :
    (dot_S2048x512_S512x2048_S2048x2048_1_0_0_1_n_n.rhsIdx i q 1).val = (i 1).val := by
  unfold DotDims.rhsIdx
  rw [dif_neg (show ¬(1 : Fin S512x2048.rank) ∈ dot_S2048x512_S512x2048_S2048x2048_1_0_0_1_n_n.rhsBatch by decide),
    dif_pos (show (1 : Fin S512x2048.rank) ∈ dot_S2048x512_S512x2048_S2048x2048_1_0_0_1_n_n.rhsNonContracting by decide)]
  rfl

/-- The product of a [2048, 512] block with a [512, 2048] block, into a zero accumulator. -/
def blockProd (x0 : FVec Ideal S2048x512 .bf16) (x1 : FVec Ideal S512x2048 .bf16) : FVec Ideal S2048x2048 .f32 :=
  matmul dot_S2048x512_S512x2048_S2048x2048_1_0_0_1_n_n none x0 x1 (constant S2048x2048 .f32 0x00000000#32)

/-- Its entry (p, j) is the sum over the 512 summation positions k of x0 (p, k) · x1 (k, j). -/
theorem blockProd_ix2 (x0 : FVec Ideal S2048x512 .bf16) (x1 : FVec Ideal S512x2048 .bf16) (p j : Fin 2048) :
    blockProd x0 x1 (ix2 p j) = ∑ k : Fin 512, x0 (ix2 p k) * x1 (ix2 k j) :=
  Cert.LibAffine.coreDot_ix2 dot_S2048x512_S512x2048_S2048x2048_1_0_0_1_n_n rfl rfl lhs0 lhs1 rhs0 rhs1 none x0 x1 p j

/-! ## The three stored values, read at a position -/

/-- The first point's initial store is zero everywhere. -/
theorem pay1_apply (y : S2048x2048.Idx) : k0_pay1 (F := Ideal) y = 0 := by
  unfold k0_pay1
  show Ideal.ofBits .f32 0x00000000#32 = 0
  exact Ideal.ofBits_zero_f32

/-- Every point stores what the block held plus the product of its two input blocks. -/
theorem pay2_apply (acc : FVec Ideal S2048x2048 .f32) (x0 : FVec Ideal S2048x512 .bf16) (x1 : FVec Ideal S512x2048 .bf16)
    (y : S2048x2048.Idx) : k0_pay2 (F := Ideal) acc x0 x1 y = acc y + blockProd x0 x1 y := by
  unfold k0_pay2 blockProd
  simp only [shapeCast_self]
  rfl

/-- The last point of a run stores what the block held plus the bias row, the same row added to every row. -/
theorem pay3_apply (acc : FVec Ideal S2048x2048 .f32) (x2 : FVec Ideal S1x2048 .f32) (p j : Fin 2048) :
    k0_pay3 (F := Ideal) acc x2 (ix2 p j) = acc (ix2 p j) + x2 (ix2 (0 : Fin 1) j) := by
  unfold k0_pay3
  simp only [shapeCast_self]
  rw [addf_apply, broadcastTo_1b_ab_apply]

/-! ## The fold over the eight points of a run

Point n adds the product of its two input blocks (its addend; zero for an n past the grid, never used). After the
first seven points of the run that starts at point 8 · R the block holds zero plus the seven addends; the eighth point
adds its own and then the bias row. -/

/-- Point n's addend: the product of its two input blocks. -/
def addend (c : Dev nD) (n : ℕ) : S2048x2048.Idx → EReal := fun y =>
  if h : n < cfg0.N then blockProd (iblk m c 0 ⟨n, h⟩) (iblk m c 1 ⟨n, h⟩) y else 0

/-- After the first seven points of a run the block holds zero plus their seven addends. -/
theorem fold6 (c : Dev nD) (R : ℕ) (h : 8 * R + 6 < cfg0.N) (y : S2048x2048.Idx) :
    Pipeline.accAt (reset3 m c) (step3 m c) (8 * R) 6 h y = 0 + ∑ s ∈ Finset.range 7, addend m c (8 * R + s) y :=
  Pipeline.accAt_add_apply (ι := S2048x2048.Idx) (β := EReal) (reset3 m c) (step3 m c) (fun _ => 0) (addend m c) (8 * R) 6
    (fun h y => by
      unfold reset3 addend
      rw [dif_pos h]
      exact (pay2_apply _ _ _ y).trans (congrArg (· + _) (pay1_apply y)))
    (fun n h acc y h1 h2 => by
      unfold step3 addend
      rw [if_pos ⟨by omega, by omega⟩, dif_pos h]
      exact pay2_apply _ _ _ y)
    6 le_rfl h y

/-- At the last point of a run (n ≡ 7 mod 8) the step adds the block product and then the bias row. -/
theorem step3_last (c : Dev nD) (n : ℕ) (h : n < cfg0.N) (hn : n % 8 = 7) (acc : Vec Ideal S2048x2048 .f32) :
    step3 m c n h acc = k0_pay3 (k0_pay2 acc (iblk m c 0 ⟨n, h⟩) (iblk m c 1 ⟨n, h⟩)) (iblk m c 2 ⟨n, h⟩) := by
  unfold step3
  rw [if_neg (by omega), if_pos ⟨by omega, hn⟩]

/-- After the whole run the block holds, at (p, j), the eight addends at (p, j) plus the bias block's entry j. -/
theorem fold7 (c : Dev nD) (R : ℕ) (h : 8 * R + 7 < cfg0.N) (p j : Fin 2048) :
    Pipeline.accAt (reset3 m c) (step3 m c) (8 * R) 7 h (ix2 p j)
      = (∑ s ∈ Finset.range 8, addend m c (8 * R + s) (ix2 p j))
        + (iblk m c 2 ⟨8 * R + 7, h⟩ : FVec Ideal S1x2048 .f32) (ix2 (0 : Fin 1) j) := by
  rw [Pipeline.accAt_succ, step3_last m c _ h (by omega)]
  refine (pay3_apply _ _ p j).trans (congrArg (· + _) ?_)
  refine (pay2_apply _ _ _ (ix2 p j)).trans ?_
  rw [fold6 m c R _ (ix2 p j), zero_add, Finset.sum_range_succ _ 7]
  refine congrArg (_ + ·) ?_
  unfold addend
  rw [dif_pos h]

end Cert.KernelIdeal.KernelDense

end
-- ==== Proof.LibBlockSum.lean ====
/-
  General lemmas: a sum over J·K consecutive naturals, cut into J consecutive blocks of K.

  In a commutative additive monoid (the extended reals are one: their sum is commutative and associative, also at the
  infinities) the sum of g over 0 … J·K − 1 is the sum, over the blocks s = 0 … J − 1, of the sum of g over the block's
  K members s·K + 0 … s·K + (K − 1). `sum_range_blocks` states it over ranges of naturals, `sum_fin_blocks` with the
  members of a block and the whole index set as finite types, the form in which a contraction blocked along its
  summation axis meets the unblocked contraction.
-/
import Mathlib.Algebra.BigOperators.Fin

namespace Cert.LibBlockSum

open scoped BigOperators

variable {β : Type*} [AddCommMonoid β]

/-- The J blocks of K consecutive naturals exhaust 0 … J·K − 1: the sum block by block is the whole sum. -/
theorem sum_range_blocks (g : ℕ → β) (J K : ℕ) :
    ∑ s ∈ Finset.range J, ∑ k ∈ Finset.range K, g (s * K + k) = ∑ n ∈ Finset.range (J * K), g n := by
  induction J with
  | zero => simp
  | succ J ih => rw [Finset.sum_range_succ, ih, Nat.succ_mul, Finset.sum_range_add]

/-- The same with each block's members and the whole index set as finite types. -/
theorem sum_fin_blocks (g : ℕ → β) (J K : ℕ) :
    ∑ s ∈ Finset.range J, ∑ k : Fin K, g (s * K + k.val) = ∑ n : Fin (J * K), g n.val := by
  rw [← Finset.sum_range (fun n => g n), ← sum_range_blocks]
  exact Finset.sum_congr rfl fun s _ => (Finset.sum_range (fun k => g (s * K + k))).symm

end Cert.LibBlockSum
-- ==== Proof.Dense.lean ====
/-
  The function both programs compute: the dense layer x · w + b of an [8192, 4096] matrix x, a [4096, 4096] weight w
  and a bias vector b of length 4096, on the extended reals. Entry (p, j) is the sum over q of x (p, q) · w (q, j),
  plus b j. The weight the programs use is the sign of their second argument, taken entry by entry before the product.
-/
import Idealize.ShloMosaic.Lib.ValueIdx
import Idealize.ShloMosaic.PureOps.Ideal.Laws

noncomputable section

namespace Cert.Dense

open Idealize.ShloMosaic Idealize.ShloMosaic.ValueIdx

/-- The dense layer x · w + b as an [8192, 4096] array. -/
def dense (x : FVec Ideal ⟨2, ![8192, 4096]⟩ .f32) (w : FVec Ideal ⟨2, ![4096, 4096]⟩ .f32)
    (b : FVec Ideal ⟨1, ![4096]⟩ .f32) : FVec Ideal ⟨2, ![8192, 4096]⟩ .f32 :=
  fun i => (∑ q : Fin 4096, x (ix2 (i 0) q) * w (ix2 q (i 1))) + b (ix1 (i 1))

/-- Its entry (p, j). -/
theorem dense_ix2 (x : FVec Ideal ⟨2, ![8192, 4096]⟩ .f32) (w : FVec Ideal ⟨2, ![4096, 4096]⟩ .f32)
    (b : FVec Ideal ⟨1, ![4096]⟩ .f32) (p : Fin 8192) (j : Fin 4096) :
    dense x w b (ix2 p j) = (∑ q : Fin 4096, x (ix2 p q) * w (ix2 q j)) + b (ix1 j) := rfl

end Cert.Dense

end
-- ==== Proof.KernelDense.lean ====
/-
  The array the kernel leaves is the dense layer.

  Entry (P, J) of the output lies in the block (P / 2048, J / 2048), filled by the run of eight points starting at point
  8 · R with R = 2 · (P / 2048) + J / 2048, at position (P mod 2048, J mod 2048) of the block. Point 8 · R + s of the run
  adds the sum over k < 512 of x (P, s · 512 + k) · w (s · 512 + k, J), where w is the sign of the second argument;
  the eight pieces s · 512 + 0 … s · 512 + 511 exhaust the summation axis 0 … 4095, so the eight addends together are
  the whole sum over q of x (P, q) · w (q, J), and the last point adds b J.
-/
import proofs.«177421_j79044578116096_2_alg».proof.Proof.KernelBlocks
import proofs.«177421_j79044578116096_2_alg».proof.Proof.KernelFold
import proofs.«177421_j79044578116096_2_alg».proof.Proof.LibBlockSum
import proofs.«177421_j79044578116096_2_alg».proof.Proof.Dense

noncomputable section

namespace Cert.KernelIdeal.KernelDense

open Cert.KernelIdeal Cert.KernelIdeal.Gen Cert.KernelIdeal.Value Idealize.ShloMosaic Idealize.ShloMosaic.TcCoe Idealize.SL.Sem
open Idealize.ShloMosaic.ValueIdx Cert.Dense

variable (m : (ℓ : Loc nD τ sig) → Buf (Elt Ideal) ℓ)

/-- The kernel's three arguments as arrays of extended reals, the second through the sign. -/
abbrev argX (c : Dev nD) : FVec Ideal S8192x4096 .f32 := m ((c : Thread nD τ).loc main_arg0)
abbrev argW (c : Dev nD) : FVec Ideal S4096x4096 .f32 := Host.sign (m ((c : Thread nD τ).loc main_arg1))
abbrev argB (c : Dev nD) : FVec Ideal S4096 .f32 := m ((c : Thread nD τ).loc main_arg2)

/-- The product at position n of the summation axis, in row P and column J (n read modulo 4096, so that it is a
    function of every natural). -/
def term (c : Dev nD) (P : Fin 8192) (J : Fin 4096) (n : ℕ) : EReal :=
  argX m c (ix2 P ⟨n % 4096, Nat.mod_lt _ (by decide)⟩) * argW m c (ix2 ⟨n % 4096, Nat.mod_lt _ (by decide)⟩ J)

/-- At a position below 4096 it is the product x (P, q) · w (q, J). -/
theorem term_fin (c : Dev nD) (P : Fin 8192) (J : Fin 4096) (q : Fin 4096) :
    term m c P J q.val = argX m c (ix2 P q) * argW m c (ix2 q J) := by
  have e : (⟨q.val % 4096, Nat.mod_lt _ (by decide)⟩ : Fin 4096) = q := Fin.ext (Nat.mod_eq_of_lt q.isLt)
  unfold term
  rw [e]

/-- The addend of point 8 · R + s, at position (p, j) of the block of run R, is the sum of the products at the 512
    summation positions of piece s, in the row P and column J of the arrays that (p, j) is in block R. -/
theorem addend_apply (c : Dev nD) (R s : ℕ) (hs : s < 8) (hR : R < 8) (p j : Fin 2048) (P : Fin 8192) (J : Fin 4096)
    (hP : P.val = R / 2 * 2048 + p.val) (hJ : J.val = R % 2 * 2048 + j.val) :
    addend m c (8 * R + s) (ix2 p j) = ∑ k : Fin 512, term m c P J (s * 512 + k.val) := by
  have hN : 8 * R + s < cfg0.N := by rw [show cfg0.N = 64 from N_0]; omega
  unfold addend
  rw [dif_pos hN]
  refine (blockProd_ix2 _ _ p j).trans (Finset.sum_congr rfl fun k _ => ?_)
  have hk := k.isLt
  exact congrArg₂ (· * ·)
    (xblk_apply m c ⟨8 * R + s, hN⟩ p k P ⟨(s * 512 + k.val) % 4096, Nat.mod_lt _ (by decide)⟩
      (by show P.val = (8 * R + s) / 16 * 2048 + p.val; omega)
      (by show (s * 512 + k.val) % 4096 = (8 * R + s) % 8 * 512 + k.val; omega))
    (wblk_apply m c ⟨8 * R + s, hN⟩ k j ⟨(s * 512 + k.val) % 4096, Nat.mod_lt _ (by decide)⟩ J
      (by show (s * 512 + k.val) % 4096 = (8 * R + s) % 8 * 512 + k.val; omega)
      (by show J.val = (8 * R + s) / 8 % 2 * 2048 + j.val; omega))

/-- The array the kernel leaves is the dense layer of its first argument, the sign of its second and its third. -/
theorem G3_eq (c : Dev nD) : @Eq (FVec Ideal S8192x4096 .f32) (G3 m c) (dense (argX m c) (argW m c) (argB m c)) := by
  funext i
  obtain ⟨P, J, rfl⟩ : ∃ (P : Fin 8192) (J : Fin 4096), i = ix2 P J := ⟨i 0, i 1, eq_ix2 i⟩
  have hP := P.isLt
  have hJ := J.isLt
  have hN : cfg0.N = 64 := N_0
  have hR : run3Of (ix2 P J) = 2 * (P.val / 2048) + J.val / 2048 := by
    show 2 * (P.val / 2048 - 0) + 1 * (J.val / 2048 - 0) = _
    omega
  have hl : loc3Of (ix2 P J)
      = ix2 (⟨P.val % 2048, Nat.mod_lt _ (by decide)⟩ : Fin 2048) (⟨J.val % 2048, Nat.mod_lt _ (by decide)⟩ : Fin 2048) :=
    funext fun a => by
      match a with
      | ⟨0, _⟩ => rfl
      | ⟨1, _⟩ => rfl
  have h7 : 8 * run3Of (ix2 P J) + 7 < cfg0.N := by rw [hR, hN]; omega
  show (if h : 8 * run3Of (ix2 P J) + 7 < cfg0.N then
      (Pipeline.accAt (reset3 m c) (step3 m c) (8 * run3Of (ix2 P J)) 7 h) (loc3Of (ix2 P J))
    else V m c (Pipeline.arrRef spec0 3) (ix2 P J)) = _
  rw [dif_pos h7, hl]
  generalize hRdef : run3Of (ix2 P J) = R at h7 ⊢
  have hR' : R = 2 * (P.val / 2048) + J.val / 2048 := hRdef.symm.trans hR
  refine (fold7 m c R h7 _ _).trans ?_
  rw [dense_ix2]
  refine congrArg₂ (· + ·) ?_
    (bblk_apply m c ⟨8 * R + 7, h7⟩ ⟨J.val % 2048, Nat.mod_lt _ (by decide)⟩ J
      (by show J.val = (8 * R + 7) / 8 % 2 * 2048 + J.val % 2048; omega))
  rw [Finset.sum_congr rfl fun s hs => addend_apply m c R s (Finset.mem_range.mp hs) (by omega)
    ⟨P.val % 2048, Nat.mod_lt _ (by decide)⟩ ⟨J.val % 2048, Nat.mod_lt _ (by decide)⟩ P J
    (by show P.val = R / 2 * 2048 + P.val % 2048; omega) (by show J.val = R % 2 * 2048 + J.val % 2048; omega)]
  rw [Cert.LibBlockSum.sum_fin_blocks (term m c P J) 8 512]
  show ∑ q : Fin 4096, term m c P J q.val = _
  exact Finset.sum_congr rfl fun q _ => term_fin m c P J q

end Cert.KernelIdeal.KernelDense

end
-- ==== Proof.RefDense.lean ====
/-
  The reference computes the dense layer: its product of the first argument with the sign of the second contracts the
  4096 columns of the one against the 4096 rows of the other, and the bias vector, laid out as one row and then along
  every row, adds b j to entry (p, j).
-/
import proofs.«177421_j79044578116096_2_alg».proof.Proof.Gen.ReferenceIdeal.Read
import proofs.«177421_j79044578116096_2_alg».proof.Proof.Dense

noncomputable section

namespace Cert.ReferenceIdeal.RefDense

open Cert.ReferenceIdeal Cert.ReferenceIdeal.Gen Cert.ReferenceIdeal.Read Idealize.ShloMosaic Idealize.ShloMosaic.ValueIdx
open Cert.Dense

/-- The reference's result, as a function of its three arguments, is the dense layer of the first argument, the
    sign of the second and the third. -/
theorem reference_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v4 (F := Ideal) x0 x1 x2 = dense x0 (Host.sign x1) x2 := by
  funext i
  have el : ∀ k, lidx_main_v1 i k = ix2 (i 0) k := fun k => funext fun a => Fin.ext (by
    match a with
    | ⟨0, _⟩ => rfl
    | ⟨1, _⟩ => rfl)
  have er : ∀ k, ridx_main_v1 i k = ix2 k (i 1) := fun k => funext fun a => Fin.ext (by
    match a with
    | ⟨0, _⟩ => rfl
    | ⟨1, _⟩ => rfl)
  have eb : idx_main_v2 (idx_main_v3 i) = ix1 (i 1) := funext fun a => Fin.ext (by
    match a with
    | ⟨0, _⟩ => rfl)
  rw [val_main_v4_apply, val_main_v1_apply, val_main_v3_apply, val_main_v2_apply, eb]
  simp only [el, er]
  rfl

end Cert.ReferenceIdeal.RefDense

end
-- ==== Proof.lean ====
/- The proof of `Cert.Claim`.

   Both programs compute the dense layer x · sign(W) + b of an [8192, 4096] matrix x, a [4096, 4096] matrix W and a
   bias vector b of length 4096, on the extended reals: entry (P, J) is the sum over q < 4096 of x (P, q) · sign(W) (q, J),
   plus b J. The reference takes the whole product and adds the bias laid along every row. The kernel cuts the output
   into 4 × 2 blocks of 2048 × 2048 and the summation axis into 8 pieces of 512; for each output block it runs through
   the 8 pieces, starting from zero and adding one piece's block product at a time, and adds the bias row after the
   last piece. The 8 pieces exhaust the summation axis, and sums of extended reals may be regrouped freely, so the two
   results are equal entry by entry; the finiteness of the inputs is not used. The changes of float format the kernel
   makes on x and on sign(W) are the identity on the extended reals.

   The kernel's run and what its output blocks hold point by point come from the generated modules; RefDense reads the
   reference's result as the dense layer, KernelBlocks reads the kernel's input blocks as entries of the arguments,
   KernelFold reads what a run of 8 points leaves in an output block, and KernelDense puts the runs together. -/
import proofs.«177421_j79044578116096_2_alg».proof.Defs
import proofs.«177421_j79044578116096_2_alg».proof.Proof.Gen.Kernel.Frame
import proofs.«177421_j79044578116096_2_alg».proof.Proof.Gen.KernelIdeal.Value
import proofs.«177421_j79044578116096_2_alg».proof.Proof.Gen.Pre_finite_inputs
import proofs.«177421_j79044578116096_2_alg».proof.Proof.Gen.ReferenceIdeal.Run
import proofs.«177421_j79044578116096_2_alg».proof.Proof.Gen.ReferenceIdeal.Read
import proofs.«177421_j79044578116096_2_alg».proof.Proof.KernelDense
import proofs.«177421_j79044578116096_2_alg».proof.Proof.RefDense
import Idealize.ShloMosaic.Adequacy
import Idealize.ShloMosaic.Init

noncomputable section

namespace Cert.Proof

open Idealize.ShloMosaic Idealize.SL.Sem

/-- The idealized kernel terminates without a fault and leaves its arguments unchanged: its value run, weakened. -/
theorem frame_KernelIdeal : frame_KernelIdeal := fun m ρ _ =>
  (θ_run Cert.KernelIdeal.defs _ _).mono (fun _ h c => (h c).2) (Cert.KernelIdeal.Value.run (F := Ideal) m ρ)

/-- The idealized reference terminates without a fault and leaves its arguments unchanged: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the three arguments both programs end with the dense layer x · sign(W) + b in their
    result: the reference by reading its operations at an index, the kernel by the fold of its runs of 8 points. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact ((Cert.ReferenceIdeal.Read.val_main_v4_eq _ _ _).trans (Cert.ReferenceIdeal.RefDense.reference_eq _ _ _)).trans
    (Cert.KernelIdeal.KernelDense.G3_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
